-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) (main_arg3 : IVec S16x2048x2048 32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S16x2048x2048 : Shape := ⟨3, ![16, 2048, 2048]⟩
abbrev S1x256x64 : Shape := ⟨3, ![1, 256, 64]⟩
abbrev S1x2048x64 : Shape := ⟨3, ![1, 2048, 64]⟩
abbrev S1x256x2048 : Shape := ⟨3, ![1, 256, 2048]⟩
abbrev S256x64 : Shape := ⟨2, ![256, 64]⟩
abbrev S2048x64 : Shape := ⟨2, ![2048, 64]⟩
abbrev S256x2048 : Shape := ⟨2, ![256, 2048]⟩
abbrev S64x2048 : Shape := ⟨2, ![64, 2048]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .i32⟩
  | .hbm, ⟨4, _⟩ => ⟨S16x2048x64, .f32⟩
  | .hbm, ⟨5, _⟩ => ⟨S16x2048x2048, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x2048, .i32⟩
  | .local _ .vmem, ⟨7, _⟩ => ⟨S1x256x2048, .i32⟩
  | .local _ .vmem, ⟨8, _⟩ => ⟨S1x256x64, .f32⟩
  | .local _ .vmem, ⟨9, _⟩ => ⟨S1x256x64, .f32⟩
  | .local _ .vmem, ⟨10, _⟩ => ⟨S1x256x2048, .f32⟩
  | .local _ .vmem, ⟨11, _⟩ => ⟨S1x256x2048, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  shapeCasts_S256x2048_S1x256x2048 : S256x2048.ShapeCasts S1x256x2048
  shapeCasts_S256x64_S1x256x64 : S256x64.ShapeCasts S1x256x64
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S16x2048x64.size a
  hwx0_0 : ∀ i : grid0.Coords, EltTy.bits .f32 = 32 ∨ (Rect.block (s := S16x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S16x2048x2048.size a
  hwx0_3 : ∀ i : grid0.Coords, EltTy.bits .i32 = 32 ∨ (Rect.block (s := S16x2048x2048) S1x256x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S16x2048x64.size a
  hwx0_4 : ∀ i : grid0.Coords, EltTy.bits .f32 = 32 ∨ (Rect.block (s := S16x2048x64) S1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S16x2048x2048.size a
  hwx0_5 : ∀ i : grid0.Coords, EltTy.bits .f32 = 32 ∨ (Rect.block (s := S16x2048x2048) S1x256x2048.size (cc0_transform_5 i) (hinb0_5 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .i32⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16x2048x2048, .f32⟩
  | .hbm, ⟨12, _⟩ => ⟨S16x2048x2048, .f32⟩
  | .hbm, ⟨13, _⟩ => ⟨S_, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S16x2048x2048, .f32⟩
  | .hbm, ⟨22, _⟩ => ⟨S16x2048x2048, .f32⟩
  | .hbm, ⟨23, _⟩ => ⟨S16x2048x2048, .f32⟩
  | .hbm, ⟨24, _⟩ => ⟨S16x2048x2048, .f32⟩
  | .hbm, ⟨25, _⟩ => ⟨S_, .f32⟩
  | .hbm, ⟨26, _⟩ => ⟨S16x2048, .f32⟩
  | .hbm, ⟨27, _⟩ => ⟨S16x2048x1, .f32⟩
  | .hbm, ⟨28, _⟩ => ⟨S_, .f32⟩
  | .hbm, ⟨29, _⟩ => ⟨S16x2048x1, .f32⟩
  | .hbm, ⟨30, _⟩ => ⟨S16x2048x1, .f32⟩
  | .hbm, ⟨31, _⟩ => ⟨S16x2048x2048, .f32⟩
  | .hbm, ⟨32, _⟩ => ⟨S16x2048x2048, .f32⟩
  | .hbm, ⟨33, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  bcast_S_S16x2048x1 : S_.BroadcastsInDim S16x2048x1 (![] : Fin 0 → Fin S16x2048x1.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.LibRowReduce.lean ====
/-
  Readings, at indices given by coordinates, of the operations a row-wise softmax kernel and its host reference meet beyond
  the column reductions of `LibRowColumn`:
  • a `vector.multi_reduction <maximumf>` / `<add>` of a `[a, b]` matrix ALONG its rows (axis 1), at row `r`: the fold of
    `max` from the accumulator, resp. the sum, over `k : Fin b` of the entries `(r, k)`;
  • the host's `stablehlo.reduce` with a maximum body of a `[B, L, N]` array over its last axis, at `(b, r)`: the fold of
    `max` from the initial value over `k : Fin N` of the entries `(b, r, k)`;
  • a `[n, k]` matrix transposed to `[k, n]` reads, at `(d, c)`, the entry `(c, d)`;
  • a `[1, a, b]` block cast to the matrix `[a, b]` reads, at `(r, c)`, the entry `(0, r, c)`, and back.
-/
import proofs.«158360_j69965017252226_1_alg».proof.Proof.LibRowColumn

namespace Idealize.ShloMosaic.RowReduce

open Idealize.ShloMosaic Idealize.ShloMosaic.ValueIdx

variable {φ : FTy}

/-- The maximum along row `r` of a `[a, b]` matrix, as a kernel's `multi_reduction <maximumf>` over the columns computes it. -/
theorem multiReduction_maximumf_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (RowColumn.lift_cols h r k))

/-- The sum along row `r` of a `[a, b]` matrix, as a kernel's `multi_reduction <add>` over the columns computes it. -/
theorem multiReduction_add_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (RowColumn.lift_cols h r k)

/-- Entry `(b, r)` of the reduced array with the last coordinate `k` put back is `(b, r, k)`. -/
theorem lift_last3 {B L N : ℕ} (h : (⟨3, ![B, L, N]⟩ : Shape).Reduces [2] (⟨2, ![B, L]⟩ : Shape)) (b : Fin B) (r : Fin L)
    (k : Fin ((⟨3, ![B, L, N]⟩ : Shape).size 2)) : h.lift (ix2 b r) k = ix3 b r (⟨k.val, k.isLt⟩ : Fin N) := by
  funext d; apply Fin.ext
  fin_cases d <;> rfl

/-- The maximum over the last axis of a `[B, L, N]` array at `(b, r)`, as the host's `stablehlo.reduce` with a maximum body
    computes it from the initial value `init`. -/
theorem hostReduce_maximumf_last3 {B L N : ℕ} {u : Shape} (x : FVec Ideal ⟨3, ![B, L, N]⟩ φ) (init : FVec Ideal u φ)
    (h' : (⟨3, ![B, L, N]⟩ : Shape).ReducesTo [2] (⟨2, ![B, L]⟩ : Shape))
    (h : (⟨3, ![B, L, N]⟩ : Shape).Reduces [2] (⟨2, ![B, L]⟩ : Shape)) (hu : 0 < u.numel) (b : Fin B) (r : Fin L) :
    Host.reduce FloatOps.maximumf x init h' hu (ix2 b r)
      = (Finset.univ : Finset (Fin N)).fold max (init (Shape.Idx.first hu)) (fun k => x (ix3 b r k)) := by
  rw [Host.reduce_eq_fold_single FloatOps.maximumf x init h' h hu]
  exact congrArg (fun f => Finset.fold max (init (Shape.Idx.first hu)) f (Finset.univ : Finset (Fin N)))
    (funext fun k => congrArg x (lift_last3 h b r k))

/-- A `[n, k]` matrix transposed to `[k, n]` reads, at `(d, c)`, the entry `(c, d)`. -/
theorem transpose_10_apply {α : Type} {n k : ℕ} (x : (⟨2, ![n, k]⟩ : Shape).Idx → α)
    (h : (⟨2, ![n, k]⟩ : Shape).Transposes [1, 0] ⟨2, ![k, n]⟩) (d : Fin k) (c : Fin n) :
    transpose ⟨2, ![k, n]⟩ [1, 0] x h (ix2 d c) = x (ix2 c d) :=
  transpose_apply [1, 0] x h (ix2 d c) (ix2 c d) (fun b => by
    match b with
    | ⟨0, _⟩ => rfl
    | ⟨1, _⟩ => rfl)

/-- A `[1, a, b]` block cast to the matrix `[a, b]` reads, at `(r, c)`, the block's entry `(0, r, c)`. -/
theorem shapeCast_1ab_ab_apply {α : Type} {a b : ℕ} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 (0 : Fin 1) r c) :=
  shapeCast_apply x h _ _ (by
    rw [Shape.rowMajor_val_three, Shape.rowMajor_val_two]
    show (0 * a + r.val) * b + c.val = r.val * b + c.val
    rw [Nat.zero_mul, Nat.zero_add])

end Idealize.ShloMosaic.RowReduce
-- ==== Proof.MaskedSoftmax.lean ====
/-
  The mathematics both programs compute, over the extended reals, stated once and over no program.

  ONE ROW. Given a row of scores `s k` and a row of mask weights `w k` (`k < N`):
    masked k  = clip(s k, −15, 15) · w k                       (the clip is `min 15 (max (−15) ·)`)
    rowMax    = the maximum of the `masked k`, from −∞
    expo k    = exp(masked k − rowMax) · w k
    weight k  = expo k / (Σ_k' expo k' + 1e-6)                   (the literal is the f32 nearest 1e-6 on both sides)
  THE WHOLE ARRAYS. For queries `Q`, keys `K`, values `V` of shape [16, 2048, 64] and an integer mask `M` of shape
  [16, 2048, 2048]: the score of query row `r` against key row `k` in batch `b` is `(Σ_d Q(b,r,d) · K(b,k,d)) / 8`; the
  attention weights are `weight` of that row of scores and of the mask row read as numbers; the output is
  `Σ_k weight(b,r,k) · V(b,k,e)`.
  The one law needed between the two programs: a product with the f32 word of 0.125 is the quotient by the f32 word of 8
  on every extended real (both words are exact, and a quotient by a nonzero real is the product with its reciprocal).
-/
import Idealize.ShloMosaic.PureOps.Ideal
import Idealize.ShloMosaic.Lib.ValueIdx

noncomputable section

namespace Cert.MaskedSoftmax

open Idealize.ShloMosaic Idealize.ShloMosaic.ValueIdx

/-- The clip's lower bound, the f32 word of −15. -/
abbrev lo : EReal := Ideal.ofBits .f32 0xC1700000#32
/-- The clip's upper bound, the f32 word of 15. -/
abbrev hi : EReal := Ideal.ofBits .f32 0x41700000#32
/-- The value a row's maximum starts from, the f32 word of −∞. -/
abbrev negInf : EReal := Ideal.ofBits .f32 0xFF800000#32
/-- The denominator's guard, the f32 word nearest 1e-6. -/
abbrev eps : EReal := Ideal.ofBits .f32 0x358637BD#32
/-- The kernel's scale, the f32 word of 0.125. -/
abbrev eighth : EReal := Ideal.ofBits .f32 0x3E000000#32
/-- The reference's temperature, the f32 word of 8. -/
abbrev eight : EReal := Ideal.ofBits .f32 0x41000000#32

/-! ## One row -/

section Row

variable {N : ℕ}

/-- The clipped score times the mask weight. -/
def masked (s w : Fin N → EReal) (k : Fin N) : EReal := min hi (max lo (s k)) * w k

/-- The row's maximum of the masked scores, from −∞. -/
def rowMax (s w : Fin N → EReal) : EReal := (Finset.univ : Finset (Fin N)).fold max negInf (masked s w)

/-- The exponential of the masked score's distance below the row's maximum, masked again. -/
def expo (s w : Fin N → EReal) (k : Fin N) : EReal := Ideal.exp (masked s w k - rowMax s w) * w k

/-- The attention weight: the masked exponential over the row's sum of them plus the guard. -/
def weight (s w : Fin N → EReal) (k : Fin N) : EReal := Ideal.div (expo s w k) ((∑ k' : Fin N, expo s w k') + eps)

end Row

/-! ## The scale -/

theorem ofBits_eight : eight = ((8 : ℝ) : EReal) := by
  simp [Ideal.ofBits, Ideal.ieee, -EReal.coe_mul]; norm_num

theorem ofBits_eighth : eighth = ((1 / 8 : ℝ) : EReal) := by
  simp [Ideal.ofBits, Ideal.ieee, -EReal.coe_mul]; norm_num

/-- A product with 0.125 is the quotient by 8, at the infinities too. -/
theorem scale_eq (x : EReal) : x * eighth = Ideal.div x eight := by
  rw [ofBits_eight, ofBits_eighth, Ideal.div_coe (by norm_num : (8 : ℝ) ≠ 0)]

/-! ## The whole arrays -/

/-- The score of query row `r` against key row `k` in batch `b`: their inner product over 8. -/
def score (Q K : (⟨3, ![16, 2048, 64]⟩ : Shape).Idx → EReal) (b : Fin 16) (r k : Fin 2048) : EReal :=
  Ideal.div (∑ d : Fin 64, Q (ix3 b r d) * K (ix3 b k d)) eight

/-- The mask row read as numbers. -/
def maskRow (M : (⟨3, ![16, 2048, 2048]⟩ : Shape).Idx → BitVec 32) (b : Fin 16) (r k : Fin 2048) : EReal :=
  FloatOps.sitofp (F := Ideal) .f32 (M (ix3 b r k))

/-- The attention weight of key row `c` for query row `r` in batch `b`. -/
def attnAt (Q K : (⟨3, ![16, 2048, 64]⟩ : Shape).Idx → EReal) (M : (⟨3, ![16, 2048, 2048]⟩ : Shape).Idx → BitVec 32)
    (b : Fin 16) (r c : Fin 2048) : EReal :=
  weight (fun k => score Q K b r k) (fun k => maskRow M b r k) c

/-- The output: the weights' combination of the value rows. -/
def outAt (Q K V : (⟨3, ![16, 2048, 64]⟩ : Shape).Idx → EReal) (M : (⟨3, ![16, 2048, 2048]⟩ : Shape).Idx → BitVec 32)
    (b : Fin 16) (r : Fin 2048) (e : Fin 64) : EReal :=
  ∑ k : Fin 2048, attnAt Q K M b r k * V (ix3 b k e)

/-- The attention weights as an array. -/
def attnArr (Q K : (⟨3, ![16, 2048, 64]⟩ : Shape).Idx → EReal) (M : (⟨3, ![16, 2048, 2048]⟩ : Shape).Idx → BitVec 32) :
    (⟨3, ![16, 2048, 2048]⟩ : Shape).Idx → EReal :=
  fun i => attnAt Q K M ⟨(i 0).val, (i 0).isLt⟩ ⟨(i 1).val, (i 1).isLt⟩ ⟨(i 2).val, (i 2).isLt⟩

/-- The output as an array. -/
def outArr (Q K V : (⟨3, ![16, 2048, 64]⟩ : Shape).Idx → EReal) (M : (⟨3, ![16, 2048, 2048]⟩ : Shape).Idx → BitVec 32) :
    (⟨3, ![16, 2048, 64]⟩ : Shape).Idx → EReal :=
  fun i => outAt Q K V M ⟨(i 0).val, (i 0).isLt⟩ ⟨(i 1).val, (i 1).isLt⟩ ⟨(i 2).val, (i 2).isLt⟩

theorem attnArr_ix3 (Q K : (⟨3, ![16, 2048, 64]⟩ : Shape).Idx → EReal) (M : (⟨3, ![16, 2048, 2048]⟩ : Shape).Idx → BitVec 32)
    (b : Fin 16) (r c : Fin 2048) : attnArr Q K M (ix3 b r c) = attnAt Q K M b r c := rfl

theorem outArr_ix3 (Q K V : (⟨3, ![16, 2048, 64]⟩ : Shape).Idx → EReal) (M : (⟨3, ![16, 2048, 2048]⟩ : Shape).Idx → BitVec 32)
    (b : Fin 16) (r : Fin 2048) (e : Fin 64) : outArr Q K V M (ix3 b r e) = outAt Q K V M b r e := rfl

end Cert.MaskedSoftmax

end
-- ==== Proof.KernelRow.lean ====
/-
  What the kernel's body computes from its four input blocks, read entry by entry at the extended reals.

  The body is cut into the stages of the row-wise masked softmax — the scaled scores of the query block against the key
  block, the mask block as numbers, the clipped and masked scores, the masked exponentials below the row's maximum, the
  weights — each a vector expression of the previous ones, and the body's stored value is their composition (`pay2_eq`,
  by unfolding). Read at `(r, c)`:
    • the score is `(Σ_d q(r,d) · k(c,d)) · 0.125`: the matrix product with the transposed key block into a zero accumulator
      is the sum over the contracted coordinate, and the transposed block at `(d, c)` is the key block at `(c, d)`;
    • the row's maximum and the row's sum are the fold of `max` from −∞ and the sum over the row's 2048 entries, a vector
      kept as a one-column matrix and broadcast along the row reading its row entry;
  so the stored weights are `MaskedSoftmax.weight` of the row of scores and the mask row, and the second stored value, the
  product of the weights with the value block, is the sum over the 2048 key rows of weight times value entry.
-/
import proofs.«158360_j69965017252226_1_alg».proof.Proof.Gen.KernelIdeal.Skeleton
import proofs.«158360_j69965017252226_1_alg».proof.Proof.LibPlainDot
import proofs.«158360_j69965017252226_1_alg».proof.Proof.LibColumn
import proofs.«158360_j69965017252226_1_alg».proof.Proof.LibRowReduce
import proofs.«158360_j69965017252226_1_alg».proof.Proof.MaskedSoftmax

noncomputable section

namespace Cert.KernelIdeal.Row

open Cert.KernelIdeal Cert.KernelIdeal.Gen Idealize.ShloMosaic Idealize.ShloMosaic.ValueIdx
open Cert.MaskedSoftmax

variable (P0 : Vec Ideal S1x256x64 .f32) (P1 : Vec Ideal S1x2048x64 .f32) (P2 : Vec Ideal S1x2048x64 .f32)
  (P3 : Vec Ideal S1x256x2048 .i32)

/-! ## The stages -/

/-- The scaled scores: the query block times the transposed key block, times 0.125. -/
def kScore : FVec Ideal S256x2048 .f32 :=
  mulf (matmul dot_S256x64_S64x2048_S256x2048_1_0_0_1_n_n none
      (shapeCast S256x64 P0 shapeCasts_S1x256x64_S256x64 : FVec Ideal S256x64 .f32)
      (transpose S64x2048 [1, 0] (shapeCast S2048x64 P1 shapeCasts_S1x2048x64_S2048x64 : FVec Ideal S2048x64 .f32)
        transposes_S2048x64_p1_0_S64x2048 : FVec Ideal S64x2048 .f32)
      (constant S256x2048 .f32 0x00000000#32))
    (broadcast S256x2048 (Scalar.ofBits .f32 0x3E000000#32))

/-- The mask block as numbers. -/
def kMask : FVec Ideal S256x2048 .f32 :=
  sitofp .f32 (shapeCast S256x2048 P3 shapeCasts_S1x256x2048_S256x2048 : IVec S256x2048 32)

/-- The clipped scores times the mask. -/
def kMasked : FVec Ideal S256x2048 .f32 :=
  mulf (minimumf (broadcast S256x2048 (Scalar.ofBits .f32 0x41700000#32))
      (maximumf (broadcast S256x2048 (Scalar.ofBits .f32 0xC1700000#32)) (kScore P0 P1))) (kMask P3)

/-- Each row's maximum of the masked scores. -/
def kRowMax : FVec Ideal S256 .f32 :=
  multiReduction .maximumf [1] S256 (kMasked P0 P1 P3) 0xFF800000#32 reduces_S256x2048_S256 (.inl rfl) rfl

/-- The masked exponentials of the distance below the row's maximum. -/
def kExpo : FVec Ideal S256x2048 .f32 :=
  mulf (exp (subf (kMasked P0 P1 P3)
      (broadcastTo S256x2048 (shapeCast S256x1 (kRowMax P0 P1 P3) shapeCasts_S256_S256x1 : FVec Ideal S256x1 .f32)
        broadcasts_S256x1_S256x2048 : FVec Ideal S256x2048 .f32)))
    (kMask P3)

/-- Each row's sum of the masked exponentials. -/
def kRowSum : FVec Ideal S256 .f32 :=
  multiReduction .add [1] S256 (kExpo P0 P1 P3) 0x00000000#32 reduces_S256x2048_S256 (.inl rfl) rfl

/-- The weights: the masked exponentials over the row's sum plus the guard. -/
def kWeight : FVec Ideal S256x2048 .f32 :=
  divf (kExpo P0 P1 P3)
    (broadcastTo S256x2048 (addf (shapeCast S256x1 (kRowSum P0 P1 P3) shapeCasts_S256_S256x1 : FVec Ideal S256x1 .f32)
      (broadcast S256x1 (Scalar.ofBits .f32 0x358637BD#32))) broadcasts_S256x1_S256x2048 : FVec Ideal S256x2048 .f32)

/-- The body's weights are the composition of the stages. -/
theorem pay2_eq : k0_pay2 (F := Ideal) P0 P1 P3 = kWeight P0 P1 P3 := rfl

/-- The body's output block is the weights times the value block, into a zero accumulator. -/
theorem pay3_eq : k0_pay3 (F := Ideal) P0 P1 P2 P3
    = matmul dot_S256x2048_S2048x64_S256x64_1_0_0_1_n_n none (kWeight P0 P1 P3)
        (shapeCast S2048x64 P2 shapeCasts_S1x2048x64_S2048x64 : FVec Ideal S2048x64 .f32)
        (constant S256x64 .f32 0x00000000#32) := rfl

/-! ## The stages at an entry -/

/-- The kernel's row of scores for query row `r` of the block. -/
def kS (r : Fin 256) (k : Fin 2048) : EReal :=
  (∑ d : Fin 64, P0 (ix3 (0 : Fin 1) r d) * P1 (ix3 (0 : Fin 1) k d)) * eighth

/-- The kernel's mask row for query row `r` of the block. -/
def kW (r : Fin 256) (k : Fin 2048) : EReal := FloatOps.sitofp (F := Ideal) .f32 (P3 (ix3 (0 : Fin 1) r k))

theorem kScore_apply (r : Fin 256) (c : Fin 2048) : kScore P0 P1 (ix2 r c) = kS P0 P1 r c := by
  unfold kScore kS
  show FloatOps.matmul (DotDims.plain 256 64 2048) none _ _ (constant (F := Ideal) ⟨2, ![256, 2048]⟩ .f32 0x00000000#32) (ix2 r c) * _ = _
  rw [PlainDot.matmul_apply_ix2]
  refine congrArg (· * eighth) (Finset.sum_congr rfl fun d _ => ?_)
  rw [RowReduce.shapeCast_1ab_ab_apply, RowReduce.transpose_10_apply, RowReduce.shapeCast_1ab_ab_apply]

theorem kMask_apply (r : Fin 256) (c : Fin 2048) : kMask P3 (ix2 r c) = kW P3 r c := by
  unfold kMask kW
  show FloatOps.sitofp .f32 ((shapeCast S256x2048 P3 shapeCasts_S1x256x2048_S256x2048 : IVec S256x2048 32) (ix2 r c)) = _
  rw [RowReduce.shapeCast_1ab_ab_apply]

theorem kMasked_apply (r : Fin 256) (c : Fin 2048) :
    kMasked P0 P1 P3 (ix2 r c) = masked (kS P0 P1 r) (kW P3 r) c := by
  unfold kMasked masked
  show min hi (max lo (kScore P0 P1 (ix2 r c))) * kMask P3 (ix2 r c) = _
  rw [kScore_apply, kMask_apply]

theorem kRowMax_apply (r : Fin 256) : kRowMax P0 P1 P3 (ix1 r) = rowMax (kS P0 P1 r) (kW P3 r) := by
  unfold kRowMax rowMax
  refine (RowReduce.multiReduction_maximumf_cols (kMasked P0 P1 P3) 0xFF800000#32 reduces_S256x2048_S256 (.inl rfl) rfl r).trans ?_
  exact congrArg (fun f => Finset.fold max negInf f (Finset.univ : Finset (Fin 2048)))
    (funext fun k => kMasked_apply P0 P1 P3 r k)

theorem kExpo_apply (r : Fin 256) (c : Fin 2048) :
    kExpo P0 P1 P3 (ix2 r c) = expo (kS P0 P1 r) (kW P3 r) c := by
  unfold kExpo expo
  show Ideal.exp (kMasked P0 P1 P3 (ix2 r c)
      - (broadcastTo S256x2048 (shapeCast S256x1 (kRowMax P0 P1 P3) shapeCasts_S256_S256x1 : FVec Ideal S256x1 .f32)
          broadcasts_S256x1_S256x2048 : FVec Ideal S256x2048 .f32) (ix2 r c))
    * kMask P3 (ix2 r c) = _
  rw [Column.broadcastTo_a1_ab_apply, Column.shapeCast_a_a1_apply, kRowMax_apply, kMasked_apply, kMask_apply]

theorem kRowSum_apply (r : Fin 256) : kRowSum P0 P1 P3 (ix1 r) = ∑ k : Fin 2048, expo (kS P0 P1 r) (kW P3 r) k := by
  unfold kRowSum
  refine (RowReduce.multiReduction_add_cols (kExpo P0 P1 P3) 0x00000000#32 reduces_S256x2048_S256 (.inl rfl) rfl r).trans ?_
  exact Finset.sum_congr rfl fun k _ => kExpo_apply P0 P1 P3 r k

/-- The body's weights at `(r, c)`: the row-wise masked softmax of the block's scores. -/
theorem kWeight_apply (r : Fin 256) (c : Fin 2048) :
    kWeight P0 P1 P3 (ix2 r c) = weight (kS P0 P1 r) (kW P3 r) c := by
  unfold kWeight weight
  show Ideal.div (kExpo P0 P1 P3 (ix2 r c))
    ((broadcastTo S256x2048 (addf (shapeCast S256x1 (kRowSum P0 P1 P3) shapeCasts_S256_S256x1 : FVec Ideal S256x1 .f32)
      (broadcast S256x1 (Scalar.ofBits .f32 0x358637BD#32))) broadcasts_S256x1_S256x2048 : FVec Ideal S256x2048 .f32) (ix2 r c)) = _
  rw [Column.broadcastTo_a1_ab_apply]
  show Ideal.div (kExpo P0 P1 P3 (ix2 r c))
    ((shapeCast S256x1 (kRowSum P0 P1 P3) shapeCasts_S256_S256x1 : FVec Ideal S256x1 .f32) (ix2 r (0 : Fin 1)) + eps) = _
  rw [Column.shapeCast_a_a1_apply, kRowSum_apply, kExpo_apply]

/-- The weights the body stores, at `(r, c)`. -/
theorem pay2_apply (r : Fin 256) (c : Fin 2048) :
    k0_pay2 (F := Ideal) P0 P1 P3 (ix2 r c) = weight (kS P0 P1 r) (kW P3 r) c := by
  rw [pay2_eq]; exact kWeight_apply P0 P1 P3 r c

/-- The output block the body stores, at `(r, e)`: the weights' combination of the value block's rows. -/
theorem pay3_apply (r : Fin 256) (e : Fin 64) :
    k0_pay3 (F := Ideal) P0 P1 P2 P3 (ix2 r e)
      = ∑ k : Fin 2048, weight (kS P0 P1 r) (kW P3 r) k * P2 (ix3 (0 : Fin 1) k e) := by
  rw [pay3_eq]
  show FloatOps.matmul (DotDims.plain 256 2048 64) none _ _ (constant (F := Ideal) ⟨2, ![256, 64]⟩ .f32 0x00000000#32) (ix2 r e) = _
  rw [PlainDot.matmul_apply_ix2]
  refine Finset.sum_congr rfl fun k _ => ?_
  rw [kWeight_apply, RowReduce.shapeCast_1ab_ab_apply]

/-! ## The blocks as tiles of the whole arrays

Grid point `(b, j)` holds query rows `256·j … 256·j + 255` of batch `b`, that batch's whole key and value arrays, and the same
rows of the mask. When the four blocks are those tiles of arrays `Q`, `K`, `V`, `M`, the kernel's row of scores is the
specification's (the product with 0.125 is the quotient by 8) and so the stored values are the specification's entries. -/

/-- Row `r` of the `j`-th tile of 256 rows. -/
def row (j : Fin 8) (r : Fin 256) : Fin 2048 := ⟨j.val * 256 + r.val, by have := j.isLt; have := r.isLt; omega⟩

section Tiles

variable (Q K V : (⟨3, ![16, 2048, 64]⟩ : Shape).Idx → EReal) (M : (⟨3, ![16, 2048, 2048]⟩ : Shape).Idx → BitVec 32)
  (b : Fin 16) (j : Fin 8)
  (h0 : ∀ (r : Fin 256) (d : Fin 64), P0 (ix3 (0 : Fin 1) r d) = Q (ix3 b (row j r) d))
  (h1 : ∀ (k : Fin 2048) (d : Fin 64), P1 (ix3 (0 : Fin 1) k d) = K (ix3 b k d))
  (h2 : ∀ (k : Fin 2048) (e : Fin 64), P2 (ix3 (0 : Fin 1) k e) = V (ix3 b k e))
  (h3 : ∀ (r : Fin 256) (k : Fin 2048), P3 (ix3 (0 : Fin 1) r k) = M (ix3 b (row j r) k))

include h0 h1 in
/-- The kernel's row of scores is the specification's. -/
theorem kS_eq (r : Fin 256) : kS P0 P1 r = fun k => score Q K b (row j r) k := by
  funext k
  unfold kS score
  rw [scale_eq]
  exact congrArg (fun x => Ideal.div x eight) (Finset.sum_congr rfl fun d _ => by rw [h0 r d, h1 k d])

include h3 in
/-- The kernel's mask row is the specification's. -/
theorem kW_eq (r : Fin 256) : kW P3 r = fun k => maskRow M b (row j r) k := by
  funext k
  unfold kW maskRow
  rw [h3 r k]

include h0 h1 h3 in
/-- The stored weights are the specification's attention weights. -/
theorem weight_block (r : Fin 256) (c : Fin 2048) :
    k0_pay2 (F := Ideal) P0 P1 P3 (ix2 r c) = attnAt Q K M b (row j r) c := by
  rw [pay2_apply, kS_eq P0 P1 Q K b j h0 h1 r, kW_eq P3 M b j h3 r]
  rfl

include h0 h1 h2 h3 in
/-- The stored output block is the specification's output. -/
theorem out_block (r : Fin 256) (e : Fin 64) :
    k0_pay3 (F := Ideal) P0 P1 P2 P3 (ix2 r e) = outAt Q K V M b (row j r) e := by
  rw [pay3_apply, kS_eq P0 P1 Q K b j h0 h1 r, kW_eq P3 M b j h3 r]
  unfold outAt
  exact Finset.sum_congr rfl fun k _ => by rw [h2 k e]; rfl

end Tiles

end Cert.KernelIdeal.Row

end
-- ==== Proof.Whole.lean ====
/-
  From the blocks to the whole result arrays.

  The grid has 16 × 8 points; point `t` is batch `t / 8` and row tile `t mod 8`. Its query, mask, output and weights blocks are
  rows `256·(t mod 8) … + 255` of batch `t / 8` of their arrays, its key and value blocks that batch's whole [2048, 64] slabs
  (the index maps, decided once over the 128 points). So each input block read at a block coordinate is the argument array read
  at the tile's coordinate, what the point writes back is the tile of `outArr` / `attnArr` of the argument arrays (the body's
  stored values are the specification's entries on tiles), every index of a result array lies in the block of the point
  `(i₀, i₁ / 256)`, and therefore the result arrays end holding `outArr` and `attnArr` of the arguments.
-/
import proofs.«158360_j69965017252226_1_alg».proof.Proof.Gen.KernelIdeal.Value
import proofs.«158360_j69965017252226_1_alg».proof.Proof.KernelRow

noncomputable section

namespace Cert.KernelIdeal.Whole

open Cert.KernelIdeal Cert.KernelIdeal.Gen Cert.KernelIdeal.Value Cert.KernelIdeal.Row
open Idealize.ShloMosaic Idealize.ShloMosaic.TcCoe Idealize.SL.Sem Idealize.ShloMosaic.ValueIdx
open Idealize.ShloMosaic.Pipeline (Dat)
open Cert.MaskedSoftmax

variable (m : (ℓ : Loc nD τ sig) → Buf (Elt Ideal) ℓ) (ρ : Dev nD → PrngReg)

/-- The argument arrays on core `c`. -/
abbrev A0 (c : Dev nD) : (⟨3, ![16, 2048, 64]⟩ : Shape).Idx → EReal := m ((c : Thread nD τ).loc main_arg0)
abbrev A1 (c : Dev nD) : (⟨3, ![16, 2048, 64]⟩ : Shape).Idx → EReal := m ((c : Thread nD τ).loc main_arg1)
abbrev A2 (c : Dev nD) : (⟨3, ![16, 2048, 64]⟩ : Shape).Idx → EReal := m ((c : Thread nD τ).loc main_arg2)
abbrev A3 (c : Dev nD) : (⟨3, ![16, 2048, 2048]⟩ : Shape).Idx → BitVec 32 := m ((c : Thread nD τ).loc main_arg3)

theorem hz3 : (![0, 0, 0] : Fin 3 → Nat) = fun _ => 0 := funext fun a => by fin_cases a <;> rfl

/-! ## The grid -/

/-- The printed index maps, decided over the grid: point `t` is batch `t / 8`, row tile `t mod 8`; the key and value windows
    take the batch's whole slab. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = t.val % 8 ∧ win0_3.index t (2 : Fin 3) = 0
    ∧ win0_4.index t (0 : Fin 3) = t.val / 8 ∧ win0_4.index t (1 : Fin 3) = t.val % 8 ∧ win0_4.index t (2 : Fin 3) = 0
    ∧ win0_5.index t (0 : Fin 3) = t.val / 8 ∧ win0_5.index t (1 : Fin 3) = t.val % 8 ∧ win0_5.index t (2 : Fin 3) = 0 :=
  (by decide +kernel : ∀ t : Fin grid0.N, _)

/-- The batch of grid point `t`. -/
def pb (t : Fin cfg0.N) : Fin 16 := ⟨t.val / 8, by have := t.isLt; have hN : cfg0.N = 128 := N_0; omega⟩

/-- The row tile of grid point `t`. -/
def pj (t : Fin cfg0.N) : Fin 8 := ⟨t.val % 8, by omega⟩

/-! ## The input blocks as tiles of the argument arrays -/

theorem iblk0_at (c : Dev nD) (t : Fin cfg0.N) (r : Fin 256) (d : Fin 64) :
    (iblk m c 0 t : Vec Ideal S1x256x64 .f32) (ix3 (0 : Fin 1) r d) = A0 m c (ix3 (pb t) (row (pj t) r) d) := by
  obtain ⟨e0, e1, e2, -⟩ := idx_facts t
  unfold iblk
  rw [View.read_apply]
  show V m c main_arg0 _ = m ((c : Thread nD τ).loc main_arg0) _
  unfold V
  congr 1
  funext a
  apply Fin.ext
  match a with
  | ⟨0, _⟩ => show win0_0.index t (0 : Fin 3) * 1 + 1 * 0 = t.val / 8; rw [e0]; omega
  | ⟨1, _⟩ => show win0_0.index t (1 : Fin 3) * 256 + 1 * r.val = t.val % 8 * 256 + r.val; rw [e1]; omega
  | ⟨2, _⟩ => show win0_0.index t (2 : Fin 3) * 64 + 1 * d.val = d.val; rw [e2]; omega

theorem iblk1_at (c : Dev nD) (t : Fin cfg0.N) (k : Fin 2048) (d : Fin 64) :
    (iblk m c 1 t : Vec Ideal S1x2048x64 .f32) (ix3 (0 : Fin 1) k d) = A1 m c (ix3 (pb t) k d) := by
  obtain ⟨-, -, -, e0, e1, e2, -⟩ := idx_facts t
  unfold iblk
  rw [View.read_apply]
  show V m c main_arg1 _ = m ((c : Thread nD τ).loc main_arg1) _
  unfold V
  congr 1
  funext a
  apply Fin.ext
  match a with
  | ⟨0, _⟩ => show win0_1.index t (0 : Fin 3) * 1 + 1 * 0 = t.val / 8; rw [e0]; omega
  | ⟨1, _⟩ => show win0_1.index t (1 : Fin 3) * 2048 + 1 * k.val = k.val; rw [e1]; omega
  | ⟨2, _⟩ => show win0_1.index t (2 : Fin 3) * 64 + 1 * d.val = d.val; rw [e2]; omega

theorem iblk2_at (c : Dev nD) (t : Fin cfg0.N) (k : Fin 2048) (e : Fin 64) :
    (iblk m c 2 t : Vec Ideal S1x2048x64 .f32) (ix3 (0 : Fin 1) k e) = A2 m c (ix3 (pb t) k e) := by
  obtain ⟨-, -, -, -, -, -, e0, e1, e2, -⟩ := idx_facts t
  unfold iblk
  rw [View.read_apply]
  show V m c main_arg2 _ = m ((c : Thread nD τ).loc main_arg2) _
  unfold V
  congr 1
  funext a
  apply Fin.ext
  match a with
  | ⟨0, _⟩ => show win0_2.index t (0 : Fin 3) * 1 + 1 * 0 = t.val / 8; rw [e0]; omega
  | ⟨1, _⟩ => show win0_2.index t (1 : Fin 3) * 2048 + 1 * k.val = k.val; rw [e1]; omega
  | ⟨2, _⟩ => show win0_2.index t (2 : Fin 3) * 64 + 1 * e.val = e.val; rw [e2]; omega

theorem iblk3_at (c : Dev nD) (t : Fin cfg0.N) (r : Fin 256) (k : Fin 2048) :
    (iblk m c 3 t : Vec Ideal S1x256x2048 .i32) (ix3 (0 : Fin 1) r k) = A3 m c (ix3 (pb t) (row (pj t) r) k) := by
  obtain ⟨-, -, -, -, -, -, -, -, -, e0, e1, e2, -⟩ := idx_facts t
  unfold iblk
  rw [View.read_apply]
  show V m c main_arg3 _ = m ((c : Thread nD τ).loc main_arg3) _
  unfold V
  congr 1
  funext a
  apply Fin.ext
  match a with
  | ⟨0, _⟩ => show win0_3.index t (0 : Fin 3) * 1 + 1 * 0 = t.val / 8; rw [e0]; omega
  | ⟨1, _⟩ => show win0_3.index t (1 : Fin 3) * 256 + 1 * r.val = t.val % 8 * 256 + r.val; rw [e1]; omega
  | ⟨2, _⟩ => show win0_3.index t (2 : Fin 3) * 2048 + 1 * k.val = k.val; rw [e2]; omega

/-! ## What a point writes back -/

/-- The output window's block coordinate `(0, r, e)` at point `t` is the array index `(t / 8, 256·(t mod 8) + r, e)`. -/
theorem emb4 (t : Fin cfg0.N) (u : Fin 1) (r : Fin 256) (e : Fin 64) :
    ((cfg0.win 4).blk t).view.emb (ix3 u r e) = ix3 (pb t) (row (pj t) r) e := by
  obtain ⟨-, -, -, -, -, -, -, -, -, -, -, -, e0, e1, e2, -⟩ := idx_facts t
  have hu : u.val = 0 := by omega
  funext a
  apply Fin.ext
  match a with
  | ⟨0, _⟩ => show win0_4.index t (0 : Fin 3) * 1 + 1 * u.val = t.val / 8; rw [e0, hu]; omega
  | ⟨1, _⟩ => show win0_4.index t (1 : Fin 3) * 256 + 1 * r.val = t.val % 8 * 256 + r.val; rw [e1]; omega
  | ⟨2, _⟩ => show win0_4.index t (2 : Fin 3) * 64 + 1 * e.val = e.val; rw [e2]; omega

/-- The weights window's block coordinate `(0, r, k)` at point `t` is the array index `(t / 8, 256·(t mod 8) + r, k)`. -/
theorem emb5 (t : Fin cfg0.N) (u : Fin 1) (r : Fin 256) (k : Fin 2048) :
    ((cfg0.win 5).blk t).view.emb (ix3 u r k) = ix3 (pb t) (row (pj t) r) k := by
  obtain ⟨-, -, -, -, -, -, -, -, -, -, -, -, -, -, -, e0, e1, e2⟩ := idx_facts t
  have hu : u.val = 0 := by omega
  funext a
  apply Fin.ext
  match a with
  | ⟨0, _⟩ => show win0_5.index t (0 : Fin 3) * 1 + 1 * u.val = t.val / 8; rw [e0, hu]; omega
  | ⟨1, _⟩ => show win0_5.index t (1 : Fin 3) * 256 + 1 * r.val = t.val % 8 * 256 + r.val; rw [e1]; omega
  | ⟨2, _⟩ => show win0_5.index t (2 : Fin 3) * 2048 + 1 * k.val = k.val; rw [e2]; omega

/-- The entry of the output block the body leaves at point `t` is the specification's output at the tile's coordinate. -/
theorem out_at (c : Dev nD) (t : Fin cfg0.N) (y : S1x256x64.Idx) :
    E4 (F := Ideal) (iblk m c 0 t) (iblk m c 1 t) (iblk m c 2 t) (iblk m c 3 t) y
      = outArr (A0 m c) (A1 m c) (A2 m c) (A3 m c) (((cfg0.win 4).blk t).view.emb y) := by
  obtain ⟨u, r, e, rfl⟩ : ∃ (u : Fin 1) (r : Fin 256) (e : Fin 64), y = ix3 u r e := ⟨y 0, y 1, y 2, eq_ix3 y⟩
  rw [emb4, outArr_ix3]
  show k0_pay3 (F := Ideal) (iblk m c 0 t) (iblk m c 1 t) (iblk m c 2 t) (iblk m c 3 t) (ix4_0 (ix3 u r e)) = _
  rw [show ix4_0 (ix3 u r e) = ix2 r e from funext fun a => Fin.ext (by match a with | ⟨0, _⟩ => rfl | ⟨1, _⟩ => rfl)]
  exact out_block (iblk m c 0 t) (iblk m c 1 t) (iblk m c 2 t) (iblk m c 3 t) (A0 m c) (A1 m c) (A2 m c) (A3 m c) (pb t) (pj t)
    (fun r d => iblk0_at m c t r d) (fun k d => iblk1_at m c t k d) (fun k e => iblk2_at m c t k e)
    (fun r k => iblk3_at m c t r k) r e

/-- The entry of the weights block the body leaves at point `t` is the specification's weight at the tile's coordinate. -/
theorem attn_at (c : Dev nD) (t : Fin cfg0.N) (y : S1x256x2048.Idx) :
    E5 (F := Ideal) (iblk m c 0 t) (iblk m c 1 t) (iblk m c 3 t) y
      = attnArr (A0 m c) (A1 m c) (A3 m c) (((cfg0.win 5).blk t).view.emb y) := by
  obtain ⟨u, r, k, rfl⟩ : ∃ (u : Fin 1) (r : Fin 256) (k : Fin 2048), y = ix3 u r k := ⟨y 0, y 1, y 2, eq_ix3 y⟩
  rw [emb5, attnArr_ix3]
  show k0_pay2 (F := Ideal) (iblk m c 0 t) (iblk m c 1 t) (iblk m c 3 t) (ix5_0 (ix3 u r k)) = _
  rw [show ix5_0 (ix3 u r k) = ix2 r k from funext fun a => Fin.ext (by match a with | ⟨0, _⟩ => rfl | ⟨1, _⟩ => rfl)]
  exact weight_block (iblk m c 0 t) (iblk m c 1 t) (iblk m c 3 t) (A0 m c) (A1 m c) (A3 m c) (pb t) (pj t)
    (fun r d => iblk0_at m c t r d) (fun k d => iblk1_at m c t k d) (fun r k => iblk3_at m c t r k) r k

/-- What point `t` writes back to the output array is block `t` of `outArr` of the argument arrays. -/
theorem flushed4_eq (c : Dev nD) (t : Fin cfg0.N) :
    (dats m 0 c).flushed 4 t
      = ((cfg0.win 4).blk t).view.read (Elt Ideal) (outArr (A0 m c) (A1 m c) (A2 m c) (A3 m c)) := by
  show (cfg0.win 4).cut (grid0.coords t) ((dats m 0 c).after 4 t) = _
  rw [after0_4]
  unfold out0_4
  simp only [View.ld_unit_zero (S := S1x256x64) hz3, View.ld_unit_zero (S := S1x2048x64) hz3,
    View.ld_unit_zero (S := S1x256x2048) hz3]
  funext y
  show (View.canon [(⟨r0_0, k0_pay1 (k0_pay3 (iblk m c 0 t) (iblk m c 1 t) (iblk m c 2 t) (iblk m c 3 t))⟩ :
      View.Piece (Elt Ideal) S1x256x64 .f32)] y : Elt Ideal .f32)
    = outArr (A0 m c) (A1 m c) (A2 m c) (A3 m c) (((cfg0.win 4).blk t).view.emb y)
  rw [canon4_eq]
  exact out_at m c t y

/-- What point `t` writes back to the weights array is block `t` of `attnArr` of the argument arrays. -/
theorem flushed5_eq (c : Dev nD) (t : Fin cfg0.N) :
    (dats m 0 c).flushed 5 t
      = ((cfg0.win 5).blk t).view.read (Elt Ideal) (attnArr (A0 m c) (A1 m c) (A3 m c)) := by
  show (cfg0.win 5).cut (grid0.coords t) ((dats m 0 c).after 5 t) = _
  rw [after0_5]
  unfold out0_5
  simp only [View.ld_unit_zero (S := S1x256x64) hz3, View.ld_unit_zero (S := S1x2048x64) hz3,
    View.ld_unit_zero (S := S1x256x2048) hz3]
  funext y
  show (View.canon [(⟨r0_2, k0_pay4 (iblk m c 0 t) (iblk m c 1 t) (iblk m c 3 t)⟩ :
      View.Piece (Elt Ideal) S1x256x2048 .f32)] y : Elt Ideal .f32)
    = attnArr (A0 m c) (A1 m c) (A3 m c) (((cfg0.win 5).blk t).view.emb y)
  rw [canon5_eq]
  exact attn_at m c t y

/-! ## The blocks cover the arrays -/

/-- An index of the output array is in point `t`'s block iff each coordinate is in the block's range on its axis. -/
theorem mem_blk4 (t : Fin cfg0.N) (i : S16x2048x64.Idx) :
    i ∈ ((cfg0.win 4).blk t).view.set ↔ ∀ a : Fin 3, win0_4.index t a * S1x256x64.size a ≤ (i a).val
      ∧ (i a).val < win0_4.index t a * S1x256x64.size a + S1x256x64.size a := by
  show i ∈ ((View.whole main_v0_0).slice (win0_4.rect t)).set ↔ _
  rw [View.set_slice_whole, Rect.mem_set_unit]
  exact Iff.rfl

/-- An index of the weights array is in point `t`'s block iff each coordinate is in the block's range on its axis. -/
theorem mem_blk5 (t : Fin cfg0.N) (i : S16x2048x2048.Idx) :
    i ∈ ((cfg0.win 5).blk t).view.set ↔ ∀ a : Fin 3, win0_5.index t a * S1x256x2048.size a ≤ (i a).val
      ∧ (i a).val < win0_5.index t a * S1x256x2048.size a + S1x256x2048.size a := by
  show i ∈ ((View.whole main_v0_1).slice (win0_5.rect t)).set ↔ _
  rw [View.set_slice_whole, Rect.mem_set_unit]
  exact Iff.rfl

/-- Every index of the output array is in the block of the point `(i₀, i₁ / 256)`. -/
theorem cover4 (i : S16x2048x64.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 64 := (i 2).isLt
  have hN : cfg0.N = 128 := N_0
  obtain ⟨t, ht⟩ : ∃ t : Fin cfg0.N, t.val = (i 0).val * 8 + (i 1).val / 256 :=
    ⟨⟨(i 0).val * 8 + (i 1).val / 256, by rw [hN]; omega⟩, rfl⟩
  obtain ⟨-, -, -, -, -, -, -, -, -, -, -, -, e0, e1, e2, -⟩ := idx_facts t
  refine ⟨t, flush0_4 t, ?_⟩
  rw [mem_blk4]
  intro a
  match a with
  | ⟨0, _⟩ =>
    show win0_4.index t (0 : Fin 3) * 1 ≤ (i 0).val ∧ (i 0).val < win0_4.index t (0 : Fin 3) * 1 + 1
    rw [e0, ht]; omega
  | ⟨1, _⟩ =>
    show win0_4.index t (1 : Fin 3) * 256 ≤ (i 1).val ∧ (i 1).val < win0_4.index t (1 : Fin 3) * 256 + 256
    rw [e1, ht]; omega
  | ⟨2, _⟩ =>
    show win0_4.index t (2 : Fin 3) * 64 ≤ (i 2).val ∧ (i 2).val < win0_4.index t (2 : Fin 3) * 64 + 64
    rw [e2]; omega

/-- Every index of the weights array is in the block of the point `(i₀, i₁ / 256)`. -/
theorem cover5 (i : S16x2048x2048.Idx) :
    ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 2048 := (i 2).isLt
  have hN : cfg0.N = 128 := N_0
  obtain ⟨t, ht⟩ : ∃ t : Fin cfg0.N, t.val = (i 0).val * 8 + (i 1).val / 256 :=
    ⟨⟨(i 0).val * 8 + (i 1).val / 256, by rw [hN]; omega⟩, rfl⟩
  obtain ⟨-, -, -, -, -, -, -, -, -, -, -, -, -, -, -, e0, e1, e2⟩ := idx_facts t
  refine ⟨t, flush0_5 t, ?_⟩
  rw [mem_blk5]
  intro a
  match a with
  | ⟨0, _⟩ =>
    show win0_5.index t (0 : Fin 3) * 1 ≤ (i 0).val ∧ (i 0).val < win0_5.index t (0 : Fin 3) * 1 + 1
    rw [e0, ht]; omega
  | ⟨1, _⟩ =>
    show win0_5.index t (1 : Fin 3) * 256 ≤ (i 1).val ∧ (i 1).val < win0_5.index t (1 : Fin 3) * 256 + 256
    rw [e1, ht]; omega
  | ⟨2, _⟩ =>
    show win0_5.index t (2 : Fin 3) * 2048 ≤ (i 2).val ∧ (i 2).val < win0_5.index t (2 : Fin 3) * 2048 + 2048
    rw [e2]; omega

/-! ## The result arrays, and the run -/

/-- The output array ends holding `outArr` of the argument arrays. -/
theorem final4 (c : Dev nD) : (dats m 0 c).arrAt 4 cfg0.N = outArr (A0 m c) (A1 m c) (A2 m c) (A3 m c) :=
  (dats m 0 c).arrAt_eq_of_cover 4 (outArr (A0 m c) (A1 m c) (A2 m c) (A3 m c)) (fun t _ => flushed4_eq m c t) cover4

/-- The weights array ends holding `attnArr` of the argument arrays. -/
theorem final5 (c : Dev nD) : (dats m 0 c).arrAt 5 cfg0.N = attnArr (A0 m c) (A1 m c) (A3 m c) :=
  (dats m 0 c).arrAt_eq_of_cover 5 (attnArr (A0 m c) (A1 m c) (A3 m c)) (fun t _ => flushed5_eq m c t) cover5

/-- The kernel's run, read: each result array at the specification of the arguments, the arguments unchanged. -/
theorem run : θ_run defs (onTc (τ := τ) (main (F := Ideal))) ⟨m, fun _ => 0, ρ⟩ fun r => ∀ c : Dev nD,
      r.2.mem ((c : Thread nD τ).loc main_v0_0) = outArr (A0 m c) (A1 m c) (A2 m c) (A3 m c)
      ∧ r.2.mem ((c : Thread nD τ).loc main_v0_1) = attnArr (A0 m c) (A1 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (run_blocks m ρ)

end Cert.KernelIdeal.Whole

end
-- ==== Proof.RefRow.lean ====
/-
  What the reference computes, read entry by entry at the extended reals over the generated stage-by-stage reading of its
  host operations.

  At `(b, r, k)` the clipped and masked score is `MaskedSoftmax.masked` of the row of scores `(Σ_d Q(b,r,d) · K(b,k,d)) / 8`
  (the batched `dot_general` is the sum over the contracted coordinate, the clip is the outlined `maximum` / `minimum` pair)
  and of the mask row read as numbers; the reduce with a maximum body over the last axis is the fold of `max` from −∞ over
  the row; the add-reduce is `0 +` the row's sum; the two `broadcast_in_dim` steps that lift a `[16, 2048]` array to
  `[16, 2048, 2048]` read it at `(b, r)`. So the second result is `attnArr` and the first, the batched product of the weights
  with the values, is `outArr`.
-/
import proofs.«158360_j69965017252226_1_alg».proof.Proof.Gen.ReferenceIdeal.Read
import proofs.«158360_j69965017252226_1_alg».proof.Proof.LibRowReduce
import proofs.«158360_j69965017252226_1_alg».proof.Proof.MaskedSoftmax

noncomputable section

namespace Cert.ReferenceIdeal.Row

open Cert.ReferenceIdeal Cert.ReferenceIdeal.Gen Cert.ReferenceIdeal.Read
open Idealize.ShloMosaic Idealize.ShloMosaic.ValueIdx
open Cert.MaskedSoftmax

variable (X0 X1 X2 : (⟨S16x2048x64, .f32⟩ : BufTy).Contents (Elt Ideal))
  (X3 : (⟨S16x2048x2048, .i32⟩ : BufTy).Contents (Elt Ideal))

/-! ## Where each stage reads its operand -/

theorem lidx0 (b : Fin 16) (r k : Fin 2048) (d : Fin 64) : lidx_main_v0 (ix3 b r k) d = ix3 b r d :=
  funext fun a => Fin.ext (by match a with | ⟨0, _⟩ => rfl | ⟨1, _⟩ => rfl | ⟨2, _⟩ => rfl)

theorem ridx0 (b : Fin 16) (r k : Fin 2048) (d : Fin 64) : ridx_main_v0 (ix3 b r k) d = ix3 b k d :=
  funext fun a => Fin.ext (by match a with | ⟨0, _⟩ => rfl | ⟨1, _⟩ => rfl | ⟨2, _⟩ => rfl)

theorem idx78 (b : Fin 16) (r k : Fin 2048) : idx_main_v7 (idx_main_v8 (ix3 b r k)) = ix2 b r :=
  funext fun a => Fin.ext (by match a with | ⟨0, _⟩ => rfl | ⟨1, _⟩ => rfl)

theorem idx12 (b : Fin 16) (r k : Fin 2048) : idx_main_v12 (ix2 b r) k = ix3 b r k :=
  funext fun a => Fin.ext (by match a with | ⟨0, _⟩ => rfl | ⟨1, _⟩ => rfl | ⟨2, _⟩ => rfl)

theorem idx1316 (b : Fin 16) (r k : Fin 2048) : idx_main_v13 (idx_main_v16 (ix3 b r k)) = ix2 b r :=
  funext fun a => Fin.ext (by match a with | ⟨0, _⟩ => rfl | ⟨1, _⟩ => rfl)

theorem lidx18 (b : Fin 16) (r : Fin 2048) (e : Fin 64) (k : Fin 2048) : lidx_main_v18 (ix3 b r e) k = ix3 b r k :=
  funext fun a => Fin.ext (by match a with | ⟨0, _⟩ => rfl | ⟨1, _⟩ => rfl | ⟨2, _⟩ => rfl)

theorem ridx18 (b : Fin 16) (r : Fin 2048) (e : Fin 64) (k : Fin 2048) : ridx_main_v18 (ix3 b r e) k = ix3 b k e :=
  funext fun a => Fin.ext (by match a with | ⟨0, _⟩ => rfl | ⟨1, _⟩ => rfl | ⟨2, _⟩ => rfl)

/-! ## The stages at an entry -/

/-- The clipped, masked score. -/
theorem v5_apply (b : Fin 16) (r k : Fin 2048) :
    val_main_v5 (F := Ideal) X0 X1 X3 (ix3 b r k) = masked (fun k => score X0 X1 b r k) (fun k => maskRow X3 b r k) k := by
  rw [val_main_v5_apply, val_main_v3_apply, val_main_call0_v4_apply, val_main_call0_v3_apply, val_main_cst_1_apply,
    val_main_call0_v2_apply, val_main_call0_v1_apply, val_main_call0_v0_apply, val_main_cst_0_apply, val_main_v2_apply,
    val_main_v0_apply, val_main_v1_apply, val_main_cst_apply, val_main_v4_apply]
  simp only [lidx0, ridx0]
  rfl

/-- The row's maximum. -/
theorem v6_apply (b : Fin 16) (r : Fin 2048) :
    val_main_v6 (F := Ideal) X0 X1 X3 (ix2 b r) = rowMax (fun k => score X0 X1 b r k) (fun k => maskRow X3 b r k) := by
  unfold val_main_v6 rowMax
  refine (RowReduce.hostReduce_maximumf_last3 (val_main_v5 (F := Ideal) X0 X1 X3) (val_main_cst_2 (F := Ideal))
    reducesTo_S16x2048x2048_S16x2048_d2 (by decide) h_S_ b r).trans ?_
  exact congrArg (fun f => Finset.fold max negInf f (Finset.univ : Finset (Fin 2048)))
    (funext fun k => v5_apply X0 X1 X3 b r k)

/-- The row's maximum lifted back along the row. -/
theorem v8_apply (b : Fin 16) (r k : Fin 2048) :
    val_main_v8 (F := Ideal) X0 X1 X3 (ix3 b r k) = rowMax (fun k => score X0 X1 b r k) (fun k => maskRow X3 b r k) := by
  rw [val_main_v8_apply, val_main_v7_apply, idx78]
  exact v6_apply X0 X1 X3 b r

/-- The masked exponential. -/
theorem v11_apply (b : Fin 16) (r k : Fin 2048) :
    val_main_v11 (F := Ideal) X0 X1 X3 (ix3 b r k) = expo (fun k => score X0 X1 b r k) (fun k => maskRow X3 b r k) k := by
  rw [val_main_v11_apply, val_main_v10_apply, val_main_v9_apply, v5_apply, v8_apply, val_main_v4_apply]
  rfl

/-- The row's sum of the masked exponentials. -/
theorem v12_apply (b : Fin 16) (r : Fin 2048) :
    val_main_v12 (F := Ideal) X0 X1 X3 (ix2 b r)
      = ∑ k : Fin 2048, expo (fun k => score X0 X1 b r k) (fun k => maskRow X3 b r k) k := by
  rw [val_main_v12_apply]
  show Ideal.ofBits .f32 0x00000000#32 + _ = _
  rw [Ideal.ofBits_zero_f32, zero_add]
  refine Finset.sum_congr rfl fun k _ => ?_
  rw [idx12]
  exact v11_apply X0 X1 X3 b r k

/-- The denominator lifted back along the row. -/
theorem v16_apply (b : Fin 16) (r k : Fin 2048) :
    val_main_v16 (F := Ideal) X0 X1 X3 (ix3 b r k)
      = (∑ k' : Fin 2048, expo (fun k => score X0 X1 b r k) (fun k => maskRow X3 b r k) k') + eps := by
  rw [val_main_v16_apply, val_main_v15_apply, val_main_v13_apply, val_main_v14_apply, val_main_cst_4_apply, idx1316, v12_apply]
  rfl

/-- The attention weight. -/
theorem v17_apply (b : Fin 16) (r c : Fin 2048) :
    val_main_v17 (F := Ideal) X0 X1 X3 (ix3 b r c) = attnAt X0 X1 X3 b r c := by
  rw [val_main_v17_apply, v11_apply, v16_apply]
  rfl

/-- The output entry. -/
theorem v18_apply (b : Fin 16) (r : Fin 2048) (e : Fin 64) :
    val_main_v18 (F := Ideal) X0 X1 X2 X3 (ix3 b r e) = outAt X0 X1 X2 X3 b r e := by
  rw [val_main_v18_apply]
  unfold outAt
  refine Finset.sum_congr rfl fun k _ => ?_
  rw [lidx18, ridx18, v17_apply]

/-! ## The two results as arrays -/

/-- The reference's second result is the array of attention weights. -/
theorem attn_eq : val_main_v17 (F := Ideal) X0 X1 X3 = attnArr X0 X1 X3 := by
  funext i
  obtain ⟨b, r, c, rfl⟩ : ∃ (b : Fin 16) (r c : Fin 2048), i = ix3 b r c := ⟨i 0, i 1, i 2, eq_ix3 i⟩
  rw [v17_apply, attnArr_ix3]

/-- The reference's first result is the output array. -/
theorem out_eq : val_main_v18 (F := Ideal) X0 X1 X2 X3 = outArr X0 X1 X2 X3 := by
  funext i
  obtain ⟨b, r, e, rfl⟩ : ∃ (b : Fin 16) (r : Fin 2048) (e : Fin 64), i = ix3 b r e := ⟨i 0, i 1, i 2, eq_ix3 i⟩
  rw [v18_apply, outArr_ix3]

end Cert.ReferenceIdeal.Row

end
-- ==== Proof.lean ====
/-
  Scaled dot-product attention with a masked, clipped softmax: the kernel against its jnp reference, over the extended reals.

  For queries `Q`, keys `K`, values `V` of shape [16, 2048, 64] and an integer mask `M` of shape [16, 2048, 2048] both programs
  return, per batch `b` and query row `r`,
      s(k) = clip(⟨Q(b,r,·), K(b,k,·)⟩ / 8, −15, 15) · M(b,r,k),      e(k) = exp(s(k) − max_k s(k)) · M(b,r,k),
      attn(b,r,k) = e(k) / (Σ_k e(k) + 1e-6),                          out(b,r,·) = Σ_k attn(b,r,k) · V(b,k,·).
  The kernel computes them tile by tile — grid point `(b, j)` takes query rows `256 j … 256 j + 255` of batch `b` against the
  batch's whole key and value slabs, so every row's maximum and sum is complete inside one point — with the scale written as a
  product with 0.125 and the score matrix as a product with the transposed key block; the reference computes them on whole
  arrays with batched contractions, a quotient by 8 and reductions over the last axis. At the extended reals the two are one
  function of the arguments, entry by entry: 0.125 and 8 are exact, and a quotient by a nonzero real is the product with its
  reciprocal even at the infinities, so no finiteness of the inputs is used.
  `MaskedSoftmax` states that function, `KernelRow` and `Whole` read the kernel's blocks and result arrays as it, `RefRow` reads
  the reference's results as it; here the five claims are assembled. The idealized kernel is the printed kernel read at the
  extended reals with no rewrite, so `preserves` has nothing to state.
-/
import proofs.«158360_j69965017252226_1_alg».proof.Defs
import proofs.«158360_j69965017252226_1_alg».proof.Proof.Gen.Kernel
import proofs.«158360_j69965017252226_1_alg».proof.Proof.Gen.Kernel.Skeleton
import proofs.«158360_j69965017252226_1_alg».proof.Proof.Gen.Kernel.Launch
import proofs.«158360_j69965017252226_1_alg».proof.Proof.Gen.Kernel.Points
import proofs.«158360_j69965017252226_1_alg».proof.Proof.Gen.Kernel.Frame
import proofs.«158360_j69965017252226_1_alg».proof.Proof.Gen.KernelIdeal
import proofs.«158360_j69965017252226_1_alg».proof.Proof.Gen.KernelIdeal.Skeleton
import proofs.«158360_j69965017252226_1_alg».proof.Proof.Gen.KernelIdeal.Launch
import proofs.«158360_j69965017252226_1_alg».proof.Proof.Gen.KernelIdeal.Points
import proofs.«158360_j69965017252226_1_alg».proof.Proof.Gen.KernelIdeal.Frame
import proofs.«158360_j69965017252226_1_alg».proof.Proof.Gen.ReferenceIdeal
import proofs.«158360_j69965017252226_1_alg».proof.Proof.Gen.Pre_finite_inputs
import proofs.«158360_j69965017252226_1_alg».proof.Proof.Gen.KernelIdeal.Value
import proofs.«158360_j69965017252226_1_alg».proof.Proof.Gen.ReferenceIdeal.Run
import proofs.«158360_j69965017252226_1_alg».proof.Proof.Gen.ReferenceIdeal.Read
import proofs.«158360_j69965017252226_1_alg».proof.Proof.Whole
import proofs.«158360_j69965017252226_1_alg».proof.Proof.RefRow
import Idealize.ShloMosaic.Adequacy
import Idealize.ShloMosaic.Init

noncomputable section

namespace Cert.Proof

open Idealize.ShloMosaic Idealize.SL.Sem

/-- The printed kernel runs, faults nowhere and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the four arguments, the kernel's result arrays end at `outArr` and `attnArr` of its arguments
    (`Whole.run`), and the reference's results are the same two functions of its own (`RefRow.out_eq`, `RefRow.attn_eq`). -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v18_eq, Cert.ReferenceIdeal.Row.out_eq, (hagree c).1, (hagree c).2.1,
      (hagree c).2.2.1, (hagree c).2.2.2]
  · rw [Cert.ReferenceIdeal.Read.val_main_v17_eq, Cert.ReferenceIdeal.Row.attn_eq, (hagree c).1, (hagree c).2.1,
      (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
